-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S128x128 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S128x128, .i32⟩
  | .hbm, ⟨4, _⟩ => ⟨S128x128, .f32⟩
  | .hbm, ⟨5, _⟩ => ⟨S128x32x128, .f32⟩
  | .hbm, ⟨6, _⟩ => ⟨S4096x128, .f32⟩
  | .hbm, ⟨7, _⟩ => ⟨S4096x128x32, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S8192x4096, .bf16⟩
  | .hbm, ⟨12, _⟩ => ⟨S1x4096, .f32⟩
  | .hbm, ⟨13, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v7) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S128x128, .i32⟩
  | .hbm, ⟨4, _⟩ => ⟨S128x128, .f32⟩
  | .hbm, ⟨5, _⟩ => ⟨S128x32x128, .f32⟩
  | .hbm, ⟨6, _⟩ => ⟨S4096x128, .f32⟩
  | .hbm, ⟨7, _⟩ => ⟨S4096x128x32, .f32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.CaseValues.lean ====
/-
  What one grid step of the blocked product leaves behind, as values.

  The kernel walks a grid (i, j, k) with k innermost, k ∈ {0, 1}.  A 1024×1024 accumulator lives in scratch memory
  across the two k-steps of one (i, j).  At k = 0 the step stores the zero block into the accumulator, reads it back,
  and stores "accumulator + x-block · w-blockᵀ".  At k = 1 it reads what the step before left, stores
  "that + x-block · w-blockᵀ" again, reads the sum back and stores "sum + bias row (spread down the rows)" into the
  output block.  Here each of those three stored arrays is identified, for any float model, with the body's own
  arithmetic applied to the blocks the step loaded: every load and every store goes through the whole 1024×1024
  (or 1024×2048, 1×1024) rectangle at offset zero, so a load returns the buffer's contents and a single store leaves
  exactly its payload.
-/
import proofs.«165308_j36266703847894_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.CaseValues

open Cert.KernelIdeal Cert.KernelIdeal.Gen

variable {F : FTy → Type} [FloatOps F]

/-- The offset of every load and store of the body: the origin. -/
theorem origin : (![0, 0] : Fin 2 → Nat) = fun _ => 0 := funext fun a => by fin_cases a <;> rfl

/-- First k-step: the accumulator ends at "zero block + product of the two loaded blocks". -/
theorem acc_first (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x2048) origin]

/-- Second k-step: the accumulator ends at "what the first step left + product of the two loaded blocks". -/
theorem acc_second (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero (S := S1024x1024) origin]
  simp only [View.readAt_eq_ld, h3.read_unread, h4.read_unread, h7.read_unread,
    View.ld_unit_zero (S := S1024x2048) origin, View.ld_unit_zero (S := S1024x1024) origin]

/-- Second k-step: the output block ends at "the finished accumulator + the bias row". -/
theorem out_second (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    out0_B_3 c i a3 h3 a4 h4 a5 h5 a6 h6 a7 h7 hc0 hc1 x0 x1 x2 xs0 = k0_pay3 (k0_pay2 xs0 x0 x1) x2 := by
  unfold out0_B_3
  rw [View.read_writes_eq_canon _ _ _ (cover0_B_3 c i a3 h3 a4 h4 a5 h5 a6 h6 a7 h7 hc0 hc1 x0 x1 x2 xs0)]
  unfold kernelRun0_B
  dsimp only
  sl_unfold_words
  rw [View.canon_unit_zero (S := S1024x1024) origin, View.readCov_unit_zero (S := S1024x1024) _ origin]
  simp only [View.readAt_eq_ld, h3.read_unread, h4.read_unread, h5.read_unread, h7.read_unread,
    View.ld_unit_zero (S := S1024x2048) origin, View.ld_unit_zero (S := S1024x1024) origin,
    View.ld_unit_zero (S := S1x1024) origin]

end Cert.KernelIdeal.CaseValues

end
-- ==== Proof.TwoSteps.lean ====
/-
  The two steps of one output block, composed.

  The grid's points are numbered in row-major order with the contraction axis innermost, so the two steps of one
  output block (i, j) are an even point and the odd point right after it.  At the odd point the output's staging
  block holds: the epilogue of (the second accumulation step over (the first accumulation step over the reset
  block)), the first step reading the x- and w-blocks of the even point before, the second those of the odd point
  itself, the epilogue the odd point's bias block.  This holds for any float model: it only composes what each case
  of the body leaves with the bookkeeping of what the accumulator carries from one point to the next.
-/
import proofs.«165308_j36266703847894_2_alg».proof.Proof.CaseValues
import proofs.«165308_j36266703847894_2_alg».proof.Proof.Gen.KernelIdeal.Value

noncomputable section

open Idealize.ShloMosaic Idealize.ShloMosaic.TcCoe Idealize.SL.Sem

namespace Cert.KernelIdeal.TwoSteps

open Cert.KernelIdeal Cert.KernelIdeal.Gen

variable {F : FTy → Type} [FloatOps F]
variable (m : (ℓ : Loc nD τ sig) → Buf (Elt F) ℓ)

/-- The point before `t` in grid order. -/
def before (t : Fin cfg0.N) : Fin cfg0.N := ⟨t.val - 1, Nat.lt_of_le_of_lt (Nat.sub_le _ _) t.isLt⟩

/-- After an even point the accumulator holds the reset block plus the product of that point's two blocks. -/
theorem acc_after_first (c : Dev nD) (s : Fin cfg0.N) (hb0 : s.val % 2 = 0) :
    (outsAt0 m c s.val s.isLt).2 = k0_pay2 (k0_pay1 (F := F)) (iblk m c 0 s) (iblk m c 1 s) := by
  have hb1 : ¬s.val % 2 = 1 := by omega
  rw [outsAt0_A m c s hb0 hb1]
  dsimp only
  exact CaseValues.acc_first c (grid0.coords s) (ms0_0 s) (hs0_0 s) (ms0_1 s) (hs0_1 s) (ms0_2 s) (hs0_2 s) (ms0_3 s) (hs0_3 s) scM0_0 (Memref.isWhole_whole _) ((hcond0_0 s).mpr hb0) (fun h => hb1 ((hcond0_1 s).mp h)) (iblk m c 0 s) (iblk m c 1 s) (iblk m c 2 s)

/-- After an odd point the output's staging block holds both steps' products over the reset block, plus the bias. -/
theorem block_at_second (c : Dev nD) (t : Fin cfg0.N) (h1 : t.val % 2 = 1) :
    (outsAt0 m c t.val t.isLt).1
      = k0_pay3 (k0_pay2 (k0_pay2 (k0_pay1 (F := F)) (iblk m c 0 (before t)) (iblk m c 1 (before t))) (iblk m c 0 t) (iblk m c 1 t)) (iblk m c 2 t) := by
  have h0 : ¬t.val % 2 = 0 := by omega
  have hb0 : (before t).val % 2 = 0 := by show (t.val - 1) % 2 = 0; omega
  rw [outsAt0_B m c t h0 h1]
  dsimp only
  refine (CaseValues.out_second c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans ?_
  rw [show (outsAt0 m c (t.val - 1) (Nat.lt_of_le_of_lt (Nat.sub_le _ _) t.isLt)).2 = _ from acc_after_first m c (before t) hb0]

end Cert.KernelIdeal.TwoSteps

end
-- ==== Proof.RegionEntry.lean ====
/-
  What the blocked product finds in its three operand arrays, and what one block of each holds.

  Before the blocked product starts, the host has (i) rounded the activations x to bf16, (ii) expanded the 128×128
  block mask to 4096×4096, multiplied the weight by it and rounded the product to bf16, (iii) reshaped the bias
  vector to one row.  With floats read as extended reals a change of format is the identity, so the three operand
  arrays are x itself, the masked weight, and the bias as a 1×4096 row.

  The operand windows cut these arrays into blocks: x into 1024×2048 blocks indexed (i, k), the masked weight into
  1024×2048 blocks indexed (j, k), the bias row into 1×1024 blocks indexed (0, j).  Entry (p, k') of the block with
  index (a, b) is entry (a·1024 + p, b·2048 + k') of the array — a block's coordinate is always
  index × block size + the coordinate inside the block.
-/
import proofs.«165308_j36266703847894_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.RegionEntry

open Cert.KernelIdeal Cert.KernelIdeal.Gen

variable (m : (ℓ : Loc nD τ sig) → Buf (Elt Ideal) ℓ)

/-- The masked weight: the weight times the block mask expanded to the weight's shape (each mask entry repeated over
    a 32×32 tile), as the host computes it.  It is only ever handled as one array. -/
def maskedWeight (c : Dev nD) : S4096x4096.Idx → EReal :=
  mulf (F := Ideal) (m ((c : Thread nD τ).loc main_arg1) : FVec Ideal S4096x4096 .f32) (shapeCast S4096x4096 (broadcastInDim S4096x128x32 ![0, 1] bcast_S4096x128_S4096x128x32_0_1 (shapeCast S4096x128 (broadcastInDim S128x32x128 ![0, 2] bcast_S128x128_S128x32x128_0_2 (sitofp .f32 (m ((c : Thread nD τ).loc main_arg3)))) shapeCasts_S128x32x128_S4096x128)) shapeCasts_S4096x128x32_S4096x4096)

/-- The left operand array is x rounded to bf16: x itself. -/
theorem operand_x (c : Dev nD) : (V m c main_v7 : S8192x4096.Idx → Elt Ideal .bf16)
    = (truncf (F := Ideal) .bf16 (m ((c : Thread nD τ).loc main_arg0) : FVec Ideal S8192x4096 .f32) bitsLt_bf16_f32 : FVec Ideal S8192x4096 .bf16) := by
  dsimp only [Gen.V, Gen.hostOps0]
  after_results <;> rfl

/-- The right operand array is the masked weight rounded to bf16: the masked weight itself. -/
theorem operand_w (c : Dev nD) : (V m c main_v6 : S4096x4096.Idx → Elt Ideal .bf16)
    = (truncf (F := Ideal) .bf16 (mulf (m ((c : Thread nD τ).loc main_arg1) : FVec Ideal S4096x4096 .f32) (shapeCast S4096x4096 (broadcastInDim S4096x128x32 ![0, 1] bcast_S4096x128_S4096x128x32_0_1 (shapeCast S4096x128 (broadcastInDim S128x32x128 ![0, 2] bcast_S128x128_S128x32x128_0_2 (sitofp .f32 (m ((c : Thread nD τ).loc main_arg3)))) shapeCasts_S128x32x128_S4096x128)) shapeCasts_S4096x128x32_S4096x4096)) bitsLt_bf16_f32 : FVec Ideal S4096x4096 .bf16) := by
  dsimp only [Gen.V, Gen.hostOps0]
  after_results <;> rfl

/-- The third operand array is the bias vector laid out as one row. -/
theorem operand_b (c : Dev nD) : (V m c main_v8 : S1x4096.Idx → Elt Ideal .f32)
    = shapeCast S1x4096 (m ((c : Thread nD τ).loc main_arg2)) shapeCasts_S4096_S1x4096 := by
  dsimp only [Gen.V, Gen.hostOps0]
  after_results <;> rfl

/-- Entry (p, k) of the x-block a point loads is entry (n, k') of x, where n and k' are the block's indices times the
    block sizes plus p and k. -/
theorem read_x (c : Dev nD) (t : Fin cfg0.N) (p : Fin 1024) (k : Fin 2048) (n : Fin 8192) (k' : Fin 4096)
    (hn : n.val = win0_0.index t 0 * 1024 + p.val) (hk : k'.val = win0_0.index t 1 * 2048 + k.val) :
    iblk m c 0 t (ix2 p k) = m ((c : Thread nD τ).loc main_arg0) (ix2 n k') := by
  unfold iblk
  rw [View.read_apply]
  show V m c main_v7 _ = _
  rw [operand_x]
  show m ((c : Thread nD τ).loc main_arg0) (((cfg0.win 0).blk t).view.emb (ix2 p k)) = _
  refine congrArg _ (funext fun a => Fin.ext ?_)
  match a with
  | ⟨0, _⟩ => show win0_0.index t 0 * 1024 + 1 * p.val = n.val; omega
  | ⟨1, _⟩ => show win0_0.index t 1 * 2048 + 1 * k.val = k'.val; omega

/-- Entry (q, k) of the w-block a point loads is entry (o, k') of the masked weight. -/
theorem read_w (c : Dev nD) (t : Fin cfg0.N) (q : Fin 1024) (k : Fin 2048) (o : Fin 4096) (k' : Fin 4096)
    (ho : o.val = win0_1.index t 0 * 1024 + q.val) (hk : k'.val = win0_1.index t 1 * 2048 + k.val) :
    iblk m c 1 t (ix2 q k) = maskedWeight m c (ix2 o k') := by
  unfold iblk
  rw [View.read_apply]
  show V m c main_v6 _ = _
  rw [operand_w]
  show maskedWeight m c (((cfg0.win 1).blk t).view.emb (ix2 q k)) = _
  refine congrArg _ (funext fun a => Fin.ext ?_)
  match a with
  | ⟨0, _⟩ => show win0_1.index t 0 * 1024 + 1 * q.val = o.val; omega
  | ⟨1, _⟩ => show win0_1.index t 1 * 2048 + 1 * k.val = k'.val; omega

/-- The bias laid out as one row, read at (0, o), is entry o of the bias vector. -/
theorem row_apply (b : S4096.Idx → EReal) (u : Fin 1) (o : Fin 4096) :
    shapeCast S1x4096 b shapeCasts_S4096_S1x4096 (ix2 u o) = b (ix1 o) :=
  shapeCast_apply b shapeCasts_S4096_S1x4096 (ix2 u o) (ix1 o) (by
    rw [Shape.rowMajor_val_two, Shape.rowMajor_val_one]
    show o.val = u.val * 4096 + o.val
    have := u.isLt
    omega)

/-- Entry (0, q) of the bias block a point loads is entry o of the bias vector. -/
theorem read_b (c : Dev nD) (t : Fin cfg0.N) (q : Fin 1024) (o : Fin 4096)
    (hz : win0_2.index t 0 = 0) (ho : o.val = win0_2.index t 1 * 1024 + q.val) :
    iblk m c 2 t (ix2 (0 : Fin 1) q) = m ((c : Thread nD τ).loc main_arg2) (ix1 o) := by
  unfold iblk
  rw [View.read_apply]
  show V m c main_v8 _ = _
  rw [operand_b]
  refine Eq.trans (congrArg _ (funext fun a => Fin.ext ?_)) (row_apply _ (0 : Fin 1) o)
  match a with
  | ⟨0, _⟩ => show win0_2.index t 0 * 1 + 1 * 0 = 0; omega
  | ⟨1, _⟩ => show win0_2.index t 1 * 1024 + 1 * q.val = o.val; omega

end Cert.KernelIdeal.RegionEntry

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.BlockArithmetic.lean ====
/-
  The body's arithmetic on one block, entry by entry, over the extended reals.

  With floats read as extended reals and every operation exact:
  * the reset block is zero everywhere;
  * one accumulation step adds, at entry (p, q) of the 1024×1024 accumulator, the dot product of row p of the
    loaded x-block with row q of the loaded w-block (both 1024×2048: the contraction runs over the second axis of
    both, i.e. the product is x-block · w-blockᵀ);
  * the epilogue adds entry q of the 1×1024 bias row to every row.
-/
import proofs.«165308_j36266703847894_2_alg».proof.Proof.Gen.KernelIdeal.Skeleton
import proofs.«165308_j36266703847894_2_alg».proof.Proof.LibRowsDot
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.BlockArithmetic

open Cert.KernelIdeal Cert.KernelIdeal.Gen

/-- The body's contraction pairs the second axis of its left operand with the second axis of its right one. -/
theorem rows : Cert.LibRowsDot.Rows dot_S1024x2048_S1024x2048_S1024x1024_1_1_0_0_n_n := ⟨rfl, rfl, rfl, rfl, rfl, rfl⟩

/-- The reset block is zero at every entry. -/
theorem reset_apply (j : S1024x1024.Idx) : k0_pay1 (F := Ideal) j = 0 := by
  unfold k0_pay1
  simp only [shapeCast_self]
  exact Ideal.ofBits_zero_f32

/-- One accumulation step at entry (p, q): the old entry plus the dot product of row p of the x-block with row q of
    the w-block. -/
theorem step_apply (acc : Vec Ideal S1024x1024 .f32) (xb wb : Vec Ideal S1024x2048 .bf16) (p q : Fin 1024) :
    k0_pay2 acc xb wb (ix2 p q) = acc (ix2 p q) + ∑ k : Fin 2048, xb (ix2 p k) * wb (ix2 q k) := by
  unfold k0_pay2
  simp only [shapeCast_self]
  exact congrArg (acc (ix2 p q) + ·) (rows.matmul_zero_apply none xb wb p q)

/-- The epilogue at entry (p, q): the accumulator's entry plus entry q of the bias row. -/
theorem epilogue_apply (acc : Vec Ideal S1024x1024 .f32) (brow : Vec Ideal S1x1024 .f32) (p q : Fin 1024) :
    k0_pay3 acc brow (ix2 p q) = acc (ix2 p q) + brow (ix2 (0 : Fin 1) q) := by
  unfold k0_pay3
  simp only [shapeCast_self]
  refine congrArg (acc (ix2 p q) + ·) ?_
  exact broadcastTo_apply brow broadcasts_S1x1024_S1024x1024 (ix2 p q) (ix2 (0 : Fin 1) q) (fun a => by
    match a with
    | ⟨0, _⟩ => rfl
    | ⟨1, _⟩ => rfl)

end Cert.KernelIdeal.BlockArithmetic

end
-- ==== Proof.MaskedLinear.lean ====
/-
  The masked linear layer, as one function of its arrays.

  With x an 8192×4096 array, w a 4096×4096 array (the weight already multiplied by its 0/1 mask) and b a vector of
  length 4096, the layer's output at (n, o) is

      Σ_{k < 4096} x(n, k) · w(o, k)  +  b(o):

  row n of x against row o of w (the product is x · wᵀ), then the bias.  A blocked evaluation that contracts the two
  halves k < 2048 and 2048 ≤ k < 4096 separately, starting from zero, computes
  ((0 + first half) + second half) + b(o).  Over the extended reals addition is associative and has the neutral
  element 0, and a sum over 4096 consecutive positions splits into the sums over its two halves; so the two agree
  at every entry, for all extended-real values (no finiteness is used).
-/
import Idealize.ShloMosaic.PureOps.Ideal
import Idealize.ShloMosaic.Lib.ValueIdx

noncomputable section

namespace Cert.MaskedLinear

open Idealize.ShloMosaic Idealize.ShloMosaic.ValueIdx

/-- The 8192×4096 activations and outputs, the 4096×4096 weights, the bias vector. -/
abbrev Act : Shape := ⟨2, ![8192, 4096]⟩
abbrev Wgt : Shape := ⟨2, ![4096, 4096]⟩
abbrev Bias : Shape := ⟨1, ![4096]⟩

/-- Position k of half h of the contracted axis: h · 2048 + k. -/
def col (h : Fin 2) (k : Fin 2048) : Fin 4096 := ⟨h.val * 2048 + k.val, by have := h.isLt; have := k.isLt; omega⟩

/-- Half h of the dot product of row n of x with row o of w. -/
def half (x : Act.Idx → EReal) (w : Wgt.Idx → EReal) (n : Fin 8192) (o : Fin 4096) (h : Fin 2) : EReal :=
  ∑ k : Fin 2048, x (ix2 n (col h k)) * w (ix2 o (col h k))

/-- The layer's output at (n, o). -/
def entry (x : Act.Idx → EReal) (w : Wgt.Idx → EReal) (b : Bias.Idx → EReal) (n : Fin 8192) (o : Fin 4096) : EReal :=
  (∑ k : Fin 4096, x (ix2 n k) * w (ix2 o k)) + b (ix1 o)

/-- The layer's output array. -/
def linear (x : Act.Idx → EReal) (w : Wgt.Idx → EReal) (b : Bias.Idx → EReal) : Act.Idx → EReal :=
  fun i => entry x w b (i 0) (i 1)

/-- A sum over the 4096 positions is the sum over the first 2048 plus the sum over the last 2048. -/
theorem sum_halves (f : Fin 4096 → EReal) :
    ∑ k : Fin 4096, f k = ∑ k : Fin 2048, f (col 0 k) + ∑ k : Fin 2048, f (col 1 k) := by
  rw [show (∑ k : Fin 4096, f k) = _ from Fin.sum_univ_add (a := 2048) (b := 2048) f]
  refine congrArg₂ (· + ·) (Finset.sum_congr rfl fun k _ => congrArg f (Fin.ext ?_))
    (Finset.sum_congr rfl fun k _ => congrArg f (Fin.ext ?_))
  · show k.val = (0 : Fin 2).val * 2048 + k.val
    simp
  · show 2048 + k.val = (1 : Fin 2).val * 2048 + k.val
    simp

/-- The blocked evaluation — zero, plus the first half, plus the second half, plus the bias — is the layer's entry. -/
theorem blocked_eq_entry (x : Act.Idx → EReal) (w : Wgt.Idx → EReal) (b : Bias.Idx → EReal) (n : Fin 8192) (o : Fin 4096) :
    ((0 + half x w n o 0) + half x w n o 1) + b (ix1 o) = entry x w b n o := by
  unfold entry half
  rw [zero_add, sum_halves (fun k => x (ix2 n k) * w (ix2 o k))]

end Cert.MaskedLinear

end
-- ==== Proof.PointValue.lean ====
/-
  One output entry, from the blocks the two steps of its (i, j) loaded.

  Fix an output entry: row n of x, row o of the masked weight; inside its 1024×1024 block it sits at (p, q).  The
  first step loads an x-block whose row p holds x(n, k) for k < 2048 and a w-block whose row q holds w(o, k) for
  k < 2048; the second step's blocks hold the same rows for 2048 ≤ k < 4096; the bias block holds b(o) at q.  Then
  what the second step stores at (p, q) — reset, two accumulation steps, bias — is
  ((0 + first half) + second half) + b(o), which is the layer's entry at (n, o).
-/
import proofs.«165308_j36266703847894_2_alg».proof.Proof.BlockArithmetic
import proofs.«165308_j36266703847894_2_alg».proof.Proof.MaskedLinear

noncomputable section

open Idealize.ShloMosaic Idealize.ShloMosaic.ValueIdx

namespace Cert.KernelIdeal.PointValue

open Cert.KernelIdeal Cert.KernelIdeal.Gen Cert.KernelIdeal.BlockArithmetic Cert.MaskedLinear

/-- The stored entry is the layer's entry, given what the five loaded blocks hold in the rows it reads. -/
theorem stored_entry (X : Act.Idx → EReal) (W : Wgt.Idx → EReal) (B : Bias.Idx → EReal)
    (xa wa xb wb : Vec Ideal S1024x2048 .bf16) (bb : Vec Ideal S1x1024 .f32)
    (n : Fin 8192) (o : Fin 4096) (p q : Fin 1024)
    (hxa : ∀ k : Fin 2048, xa (ix2 p k) = X (ix2 n (col 0 k)))
    (hwa : ∀ k : Fin 2048, wa (ix2 q k) = W (ix2 o (col 0 k)))
    (hxb : ∀ k : Fin 2048, xb (ix2 p k) = X (ix2 n (col 1 k)))
    (hwb : ∀ k : Fin 2048, wb (ix2 q k) = W (ix2 o (col 1 k)))
    (hb : bb (ix2 (0 : Fin 1) q) = B (ix1 o)) :
    k0_pay3 (k0_pay2 (k0_pay2 (k0_pay1 (F := Ideal)) xa wa) xb wb) bb (ix2 p q) = entry X W B n o := by
  rw [epilogue_apply, step_apply, step_apply, reset_apply, hb, ← blocked_eq_entry]
  unfold half
  simp only [hxa, hwa, hxb, hwb]

end Cert.KernelIdeal.PointValue

end
-- ==== Proof.OutputArray.lean ====
/-
  The output array after the blocked product: the masked linear layer.

  Only the odd points write an output block back, and the block written at the odd point of (i, j) is the 1024×1024
  block of the output array with index (i, j).  By the composition of the two steps and the contents of the loaded
  blocks, its entry (p, q) is the layer's entry (i·1024 + p, j·1024 + q).  The 8 × 4 blocks tile the 8192×4096
  output — entry (r, s) lies in block (r / 1024, s / 1024) — so after the run the whole array is the layer of x, the
  masked weight and the bias.
-/
import proofs.«165308_j36266703847894_2_alg».proof.Proof.TwoSteps
import proofs.«165308_j36266703847894_2_alg».proof.Proof.RegionEntry
import proofs.«165308_j36266703847894_2_alg».proof.Proof.PointValue
import proofs.«165308_j36266703847894_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.OutputArray

open Cert.KernelIdeal Cert.KernelIdeal.Gen Cert.MaskedLinear Cert.KernelIdeal.RegionEntry Cert.KernelIdeal.TwoSteps

variable (m : (ℓ : Loc nD τ sig) → Buf (Elt Ideal) ℓ) (ρ : Dev nD → PrngReg)

/-- The layer of the arrays the program was launched with. -/
def layer (c : Dev nD) : S8192x4096.Idx → EReal := linear (m ((c : Thread nD τ).loc main_arg0)) (maskedWeight m c) (m ((c : Thread nD τ).loc main_arg2))

/-- The windows' block indices at an odd point and at the even point before it: both points read the x-blocks of the
    output's block row and the w-blocks of its block column, the even point the first half of the contracted axis and
    the odd point the second; the bias block is the output's block column. -/
theorem index_facts : ∀ t : Fin cfg0.N, t.val % 2 = 1 →
    win0_0.index (before t) (0 : Fin 2) = win0_3.index t (0 : Fin 2) ∧ win0_0.index (before t) (1 : Fin 2) = 0
    ∧ win0_1.index (before t) (0 : Fin 2) = win0_3.index t (1 : Fin 2) ∧ win0_1.index (before t) (1 : Fin 2) = 0
    ∧ win0_0.index t (0 : Fin 2) = win0_3.index t (0 : Fin 2) ∧ win0_0.index t (1 : Fin 2) = 1
    ∧ win0_1.index t (0 : Fin 2) = win0_3.index t (1 : Fin 2) ∧ win0_1.index t (1 : Fin 2) = 1
    ∧ win0_2.index t (0 : Fin 2) = 0 ∧ win0_2.index t (1 : Fin 2) = win0_3.index t (1 : Fin 2)
    ∧ win0_3.index t (0 : Fin 2) < 8 ∧ win0_3.index t (1 : Fin 2) < 4 :=
  (by decide +kernel : ∀ t : Fin grid0.N, _)

/-- Every output block index is some odd point's. -/
theorem index_onto : ∀ (q0 : Fin 8) (q1 : Fin 4), ∃ t : Fin cfg0.N, t.val % 2 = 1 ∧ win0_3.index t = ![q0.val, q1.val] :=
  (by decide +kernel : ∀ (q0 : Fin 8) (q1 : Fin 4), ∃ t : Fin grid0.N, t.val % 2 = 1 ∧ win0_3.index t = ![q0.val, q1.val])

/-- What a writing point writes back is its block of the layer. -/
theorem flushed_eq (c : Dev nD) (t : Fin cfg0.N) (hf : (cfg0.win 3).flush t = true) :
    (dats m 0 c).flushed 3 t = ((cfg0.win 3).blk t).view.read (Elt Ideal) (layer m c) := by
  have h1 : t.val % 2 = 1 := (flush0_3 t).mp hf
  rw [Value.flushed3 m c t, block_at_second m c t h1]
  obtain ⟨ea0, ea1, eb0, eb1, ec0, ec1, ed0, ed1, ee0, ee1, hi, hj⟩ := index_facts t h1
  funext y
  obtain ⟨p, q, rfl⟩ : ∃ (p q : Fin 1024), y = ix2 p q := ⟨y 0, y 1, eq_ix2 y⟩
  rw [View.read_apply]
  have hp := p.isLt
  have hq := q.isLt
  have hn : win0_3.index t (0 : Fin 2) * 1024 + p.val < 8192 := by omega
  have ho : win0_3.index t (1 : Fin 2) * 1024 + q.val < 4096 := by omega
  have hemb : ((cfg0.win 3).blk t).view.emb (ix2 p q)
      = (ix2 (⟨win0_3.index t (0 : Fin 2) * 1024 + p.val, hn⟩ : Fin 8192) (⟨win0_3.index t (1 : Fin 2) * 1024 + q.val, ho⟩ : Fin 4096) : S8192x4096.Idx) :=
    funext fun a => Fin.ext (by
      match a with
      | ⟨0, _⟩ => show win0_3.index t (0 : Fin 2) * 1024 + 1 * p.val = win0_3.index t (0 : Fin 2) * 1024 + p.val; omega
      | ⟨1, _⟩ => show win0_3.index t (1 : Fin 2) * 1024 + 1 * q.val = win0_3.index t (1 : Fin 2) * 1024 + q.val; omega)
  rw [hemb]
  exact PointValue.stored_entry (m ((c : Thread nD τ).loc main_arg0)) (maskedWeight m c) (m ((c : Thread nD τ).loc main_arg2))
    (iblk m c 0 (before t)) (iblk m c 1 (before t)) (iblk m c 0 t) (iblk m c 1 t) (iblk m c 2 t)
    ⟨win0_3.index t (0 : Fin 2) * 1024 + p.val, hn⟩ ⟨win0_3.index t (1 : Fin 2) * 1024 + q.val, ho⟩ p q
    (fun k => read_x m c (before t) p k _ (col 0 k)
      (by show win0_3.index t (0 : Fin 2) * 1024 + p.val = win0_0.index (before t) (0 : Fin 2) * 1024 + p.val; rw [ea0])
      (by show (0 : Fin 2).val * 2048 + k.val = win0_0.index (before t) (1 : Fin 2) * 2048 + k.val; rw [ea1]; simp))
    (fun k => read_w m c (before t) q k _ (col 0 k)
      (by show win0_3.index t (1 : Fin 2) * 1024 + q.val = win0_1.index (before t) (0 : Fin 2) * 1024 + q.val; rw [eb0])
      (by show (0 : Fin 2).val * 2048 + k.val = win0_1.index (before t) (1 : Fin 2) * 2048 + k.val; rw [eb1]; simp))
    (fun k => read_x m c t p k _ (col 1 k)
      (by show win0_3.index t (0 : Fin 2) * 1024 + p.val = win0_0.index t (0 : Fin 2) * 1024 + p.val; rw [ec0])
      (by show (1 : Fin 2).val * 2048 + k.val = win0_0.index t (1 : Fin 2) * 2048 + k.val; rw [ec1]; simp))
    (fun k => read_w m c t q k _ (col 1 k)
      (by show win0_3.index t (1 : Fin 2) * 1024 + q.val = win0_1.index t (0 : Fin 2) * 1024 + q.val; rw [ed0])
      (by show (1 : Fin 2).val * 2048 + k.val = win0_1.index t (1 : Fin 2) * 2048 + k.val; rw [ed1]; simp))
    (read_b m c t q _ ee0
      (by show win0_3.index t (1 : Fin 2) * 1024 + q.val = win0_2.index t (1 : Fin 2) * 1024 + q.val; rw [ee1]))

/-- An entry of the output array lies in a point's block iff each coordinate lies in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- Every entry of the output array lies in the block of some writing point: the one of its 1024×1024 tile. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht1, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, (flush0_3 t).mpr ht1, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the run the output array is the layer. -/
theorem final (c : Dev nD) : (dats m 0 c).arrAt 3 cfg0.N = layer m c :=
  (dats m 0 c).arrAt_eq_of_cover 3 (layer m c) (fun t hf => flushed_eq m c t hf) covered

/-- Every weakly fair execution of the blocked program terminates with the output array at the layer of the launch
    arrays, and the launch arrays unchanged. -/
theorem run : θ_run defs (onTc (τ := τ) (main (F := Ideal))) ⟨m, fun _ => 0, ρ⟩ fun r => ∀ c : Dev nD,
      r.2.mem ((c : Thread nD τ).loc main_v9) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.OutputArray

end
-- ==== Proof.ReferenceLayer.lean ====
/-
  The reference program computes the masked linear layer.

  Its host operations are: expand the 128×128 block mask to 4096×4096 (two broadcasts and two reshapes), multiply the
  weight by it entry by entry, contract the activations' second axis with the masked weight's second axis, spread the
  bias over the rows and add.  Read at entry (n, o) with floats as extended reals, the contraction is the sum over
  k < 4096 of x(n, k) · w'(o, k), w' the masked weight, and the doubly broadcast bias is b(o): the layer's entry.
  The masked weight itself is never opened: it enters as one array.
-/
import proofs.«165308_j36266703847894_2_alg».proof.Proof.Gen.ReferenceIdeal.Read
import proofs.«165308_j36266703847894_2_alg».proof.Proof.MaskedLinear

noncomputable section

open Idealize.ShloMosaic Idealize.ShloMosaic.ValueIdx

namespace Cert.ReferenceIdeal.Layer

open Cert.ReferenceIdeal Cert.ReferenceIdeal.Read Cert.MaskedLinear

/-- The reference's result array is the layer of the activations, the masked weight and the bias. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S128x128, .i32⟩ : BufTy).Contents (Elt Ideal)) :
    val_main_v9 (F := Ideal) x0 x1 x2 x3 = linear x0 (val_main_v5 (F := Ideal) x1 x3) x2 := by
  funext i
  obtain ⟨n, o, rfl⟩ : ∃ (n : Fin 8192) (o : Fin 4096), i = ix2 n o := ⟨i 0, i 1, eq_ix2 i⟩
  rw [val_main_v9_apply, val_main_v6_apply, val_main_v8_apply, val_main_v7_apply]
  have el : ∀ k : Fin 4096, lidx_main_v6 (ix2 n o) k = ix2 n k := fun k => funext fun a => Fin.ext (by
    match a with
    | ⟨0, _⟩ => rfl
    | ⟨1, _⟩ => rfl)
  have er : ∀ k : Fin 4096, ridx_main_v6 (ix2 n o) k = ix2 o k := fun k => funext fun a => Fin.ext (by
    match a with
    | ⟨0, _⟩ => rfl
    | ⟨1, _⟩ => rfl)
  have eb : idx_main_v7 (idx_main_v8 (ix2 n o)) = ix1 o := funext fun a => Fin.ext (by
    match a with
    | ⟨0, _⟩ => rfl)
  simp only [el, er, eb]
  rfl

end Cert.ReferenceIdeal.Layer

end
-- ==== Proof.lean ====
/-
  A block-sparse linear layer computed by a blocked matrix product, against its plain formulation.

  Both programs expand a 128×128 block mask to 4096×4096 (each entry repeated over a 32×32 tile) and multiply the
  4096×4096 weight by it.  The reference then contracts the 8192×4096 activations x with the masked weight w' over
  their second axes and adds the bias:  y(n, o) = Σ_{k<4096} x(n, k) · w'(o, k) + b(o).

  The kernel rounds x and w' to bf16 and walks a grid (i, j, k) of 8 × 4 × 2 points, k innermost.  For each output
  block (i, j) of 1024×1024 entries it keeps an accumulator: zeroed at k = 0, increased at each k by the product of
  the 1024×2048 x-block (i, k) with the transpose of the 1024×2048 w'-block (j, k), and at k = 1 stored, plus the
  bias block j spread down the rows, into the output block, which is then written back.

  With floats read as extended reals and every operation exact, rounding to bf16 is the identity, so the kernel's
  entry (n, o) is ((0 + Σ_{k<2048} x(n,k)·w'(o,k)) + Σ_{2048≤k<4096} x(n,k)·w'(o,k)) + b(o).  Addition of extended
  reals is associative with neutral element 0 and a finite sum splits into the sums over two halves of its range, so
  this is the reference's entry for ALL extended-real inputs: the finiteness of the inputs is not used.  The masked
  weight is the same term of the same arrays in both programs and is never opened.

  The modules: MaskedLinear (the layer as one function, and the two-halves law), ReferenceLayer (the reference
  computes it), CaseValues / TwoSteps (what the body's two cases leave, composed over one output block),
  BlockArithmetic / PointValue (the body's arithmetic entry by entry), RegionEntry (the operand arrays and their
  blocks), OutputArray (the blocks tile the output; the kernel's run).  The three frames are the generated ones; the
  idealization rewrote nothing, so `preserves` is `True`.
-/
import proofs.«165308_j36266703847894_2_alg».proof.Defs
import proofs.«165308_j36266703847894_2_alg».proof.Proof.Gen.Kernel
import proofs.«165308_j36266703847894_2_alg».proof.Proof.Gen.Kernel.Frame
import proofs.«165308_j36266703847894_2_alg».proof.Proof.Gen.KernelIdeal
import proofs.«165308_j36266703847894_2_alg».proof.Proof.Gen.KernelIdeal.Frame
import proofs.«165308_j36266703847894_2_alg».proof.Proof.Gen.KernelIdeal.Value
import proofs.«165308_j36266703847894_2_alg».proof.Proof.Gen.ReferenceIdeal
import proofs.«165308_j36266703847894_2_alg».proof.Proof.Gen.ReferenceIdeal.Run
import proofs.«165308_j36266703847894_2_alg».proof.Proof.Gen.ReferenceIdeal.Read
import proofs.«165308_j36266703847894_2_alg».proof.Proof.Gen.Pre_finite_inputs
import proofs.«165308_j36266703847894_2_alg».proof.Proof.OutputArray
import proofs.«165308_j36266703847894_2_alg».proof.Proof.ReferenceLayer
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's output array and the reference's result are both the masked linear layer of
    the launch arrays, which agree. -/
theorem algebraic : Cert.algebraic_KernelIdeal_ReferenceIdeal := by
  intro m ρ m' ρ' _ hagree
  refine ⟨fun c => Cert.KernelIdeal.OutputArray.layer m c, Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Layer.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
